-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x16 : Shape := ⟨4, ![8, 512, 512, 16]⟩
abbrev S8x512x512 : Shape := ⟨3, ![8, 512, 512]⟩
abbrev S16x16 : Shape := ⟨2, ![16, 16]⟩
abbrev S16 : Shape := ⟨1, ![16]⟩
abbrev S_ : Shape := ⟨0, ![]⟩

class Facts : Prop where
  bcast_S_S8x512x512x16 : S_.BroadcastsInDim S8x512x512x16 (![] : Fin 0 → Fin S8x512x512x16.rank)
  reducesTo_S8x512x512x16_S_d0_1_2_3 : S8x512x512x16.ReducesTo [0, 1, 2, 3] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8x512x512x16 .f32) (main_arg1 : IVec S8x512x512 1) (main_arg2 : FVec F S16x16 .f32) (main_arg3 : FVec F S16 .f32) : IVec S_ 1 :=
  let main_v0 : FVec F S8x512x512x16 .f32 := Host.absf main_arg0
  let main_cst : FVec F S_ .f32 := constant S_ .f32 0x7F800000#32
  let main_v1 : FVec F S8x512x512x16 .f32 := broadcastInDim S8x512x512x16 ![] bcast_S_S8x512x512x16 main_cst
  let main_v2 : IVec S8x512x512x16 1 := cmpf .olt main_v0 main_v1
  let main_c : IVec S_ 1 := constantI S_ 1 1#1
  let main_v3 : IVec S_ 1 := (fun x v => Host.reduce IntOp.andi x v reducesTo_S8x512x512x16_S_d0_1_2_3 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8x512x512x16 : Shape := ⟨4, ![8, 512, 512, 16]⟩
abbrev S8x512x512 : Shape := ⟨3, ![8, 512, 512]⟩
abbrev S16x16 : Shape := ⟨2, ![16, 16]⟩
abbrev S16 : Shape := ⟨1, ![16]⟩
abbrev S262144x128 : Shape := ⟨2, ![262144, 128]⟩
abbrev S262144x8 : Shape := ⟨2, ![262144, 8]⟩
abbrev S8x8 : Shape := ⟨2, ![8, 8]⟩
abbrev S_ : Shape := ⟨0, ![]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S8 : Shape := ⟨1, ![8]⟩
abbrev S8x1 : Shape := ⟨2, ![8, 1]⟩
abbrev S8x128 : Shape := ⟨2, ![8, 128]⟩
abbrev S4096x128 : Shape := ⟨2, ![4096, 128]⟩
abbrev S4096x8 : Shape := ⟨2, ![4096, 8]⟩

abbrev nBuf : Space → Nat
  | .hbm => 53
  | .vmem => 9
  | .smem => 0
  | _ => 0

abbrev bufTy : (tb : Table) → Fin (tcTables nBuf tb) → BufTy
  | .hbm, ⟨0, _⟩ => ⟨S8x512x512x16, .f32⟩
  | .hbm, ⟨1, _⟩ => ⟨S8x512x512, .i1⟩
  | .hbm, ⟨2, _⟩ => ⟨S16x16, .f32⟩
  | .hbm, ⟨3, _⟩ => ⟨S16, .f32⟩
  | .hbm, ⟨4, _⟩ => ⟨S262144x128, .f32⟩
  | .hbm, ⟨5, _⟩ => ⟨S262144x8, .i1⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S16x16, .f32⟩
  | .hbm, ⟨14, _⟩ => ⟨S8x1x8x1, .f32⟩
  | .hbm, ⟨15, _⟩ => ⟨S1x16x1x16, .f32⟩
  | .hbm, ⟨16, _⟩ => ⟨S8x16x8x16, .f32⟩
  | .hbm, ⟨17, _⟩ => ⟨S8x16x8x16, .f32⟩
  | .hbm, ⟨18, _⟩ => ⟨S8x16x8x16, .f32⟩
  | .hbm, ⟨19, _⟩ => ⟨S128x128, .f32⟩
  | .hbm, ⟨20, _⟩ => ⟨S1x16, .f32⟩
  | .hbm, ⟨21, _⟩ => ⟨S8x16, .f32⟩
  | .hbm, ⟨22, _⟩ => ⟨S128, .f32⟩
  | .hbm, ⟨23, _⟩ => ⟨S1x128, .f32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S8, .i32⟩
  | .hbm, ⟨44, _⟩ => ⟨S8x1, .i32⟩
  | .hbm, ⟨45, _⟩ => ⟨S1x128, .i32⟩
  | .hbm, ⟨46, _⟩ => ⟨S8x128, .i32⟩
  | .hbm, ⟨47, _⟩ => ⟨S8x128, .i32⟩
  | .hbm, ⟨48, _⟩ => ⟨S8x128, .i1⟩
  | .hbm, ⟨49, _⟩ => ⟨S8x128, .f32⟩
  | .hbm, ⟨50, _⟩ => ⟨S262144x8, .i32⟩
  | .hbm, ⟨51, _⟩ => ⟨S262144x128, .f32⟩
  | .hbm, ⟨52, _⟩ => ⟨S8x512x512x16, .f32⟩
  | .local _ .vmem, ⟨0, _⟩ => ⟨S4096x128, .f32⟩
  | .local _ .vmem, ⟨1, _⟩ => ⟨S4096x128, .f32⟩
  | .local _ .vmem, ⟨2, _⟩ => ⟨S4096x8, .i32⟩
  | .local _ .vmem, ⟨3, _⟩ => ⟨S4096x8, .i32⟩
  | .local _ .vmem, ⟨4, _⟩ => ⟨S128x128, .f32⟩
  | .local _ .vmem, ⟨5, _⟩ => ⟨S1x128, .f32⟩
  | .local _ .vmem, ⟨6, _⟩ => ⟨S8x128, .f32⟩
  | .local _ .vmem, ⟨7, _⟩ => ⟨S4096x128, .f32⟩
  | .local _ .vmem, ⟨8, _⟩ => ⟨S4096x128, .f32⟩
  | _, _ => ⟨S8x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_0 : Ref sig .tc := ⟨.hbm, 25, rfl⟩
abbrev main_call0_call1_v0 : Ref sig .tc := ⟨.hbm, 26, rfl⟩
abbrev main_call0_call1_v1 : Ref sig .tc := ⟨.hbm, 27, rfl⟩
abbrev main_call0_call1_v2 : Ref sig .tc := ⟨.hbm, 28, rfl⟩
abbrev main_call0_call1_v3 : Ref sig .tc := ⟨.hbm, 29, rfl⟩
abbrev main_call0_call1_v4 : Ref sig .tc := ⟨.hbm, 30, rfl⟩
abbrev main_call0_call1_v5 : Ref sig .tc := ⟨.hbm, 31, rfl⟩
abbrev main_call0_call1_v6 : Ref sig .tc := ⟨.hbm, 32, rfl⟩
abbrev main_call0_call1_v7 : Ref sig .tc := ⟨.hbm, 33, rfl⟩
abbrev main_call0_call1_v8 : Ref sig .tc := ⟨.hbm, 34, rfl⟩
abbrev main_call0_call1_c : Ref sig .tc := ⟨.hbm, 35, rfl⟩
abbrev main_call0_call1_v9 : Ref sig .tc := ⟨.hbm, 36, rfl⟩
abbrev main_call0_call1_v10 : Ref sig .tc := ⟨.hbm, 37, rfl⟩
abbrev main_call0_call1_v11 : Ref sig .tc := ⟨.hbm, 38, rfl⟩
abbrev main_call0_call1_c_0 : Ref sig .tc := ⟨.hbm, 39, rfl⟩
abbrev main_call0_call1_v12 : Ref sig .tc := ⟨.hbm, 40, rfl⟩
abbrev main_call0_call1_v13 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_v18 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_call0_v22 : Ref sig .tc := ⟨.hbm, 49, rfl⟩
abbrev main_call0_v23 : Ref sig .tc := ⟨.hbm, 50, rfl⟩
abbrev main_call0_v24 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x512x512x16_S262144x128 : S8x512x512x16.ShapeCasts S262144x128
  shapeCasts_S8x512x512_S262144x8 : S8x512x512.ShapeCasts S262144x8
  bcast_S_S8x8 : S_.BroadcastsInDim S8x8 (![] : Fin 0 → Fin S8x8.rank)
  transposes_S16x16_S16x16_1_0 : S16x16.Transposes [1, 0] S16x16
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  bcast_S_S128 : S_.BroadcastsInDim S128 (![] : Fin 0 → Fin S128.rank)
  bcast_S8_S8x1_0 : S8.BroadcastsInDim S8x1 (![0] : Fin 1 → Fin S8x1.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S8x1_S8x128_0_1 : S8x1.BroadcastsInDim S8x128 (![0, 1] : Fin 2 → Fin S8x128.rank)
  natLt_1_32 : 1 < 32
  shapeCasts_S262144x128_S8x512x512x16 : S262144x128.ShapeCasts S8x512x512x16
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  dot_S4096x128_S128x128_S4096x128_1_0_0_1_n_n_wf : DotDims.WF S4096x128 S128x128 S4096x128 [1] [0] [0] [1] [] []
  dot_S4096x8_S8x128_S4096x128_1_0_0_1_n_n_wf : DotDims.WF S4096x8 S8x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S262144x8.size a
  hwx0_1 : ∀ i : grid0.Coords, EltTy.bits .i32 = 32 ∨ (Rect.block (s := S262144x8) S4096x8.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S262144x128.size a
  hwx0_5 : ∀ i : grid0.Coords, EltTy.bits .f32 = 32 ∨ (Rect.block (s := S262144x128) S4096x128.size (cc0_transform_5 i) (hinb0_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpec (Memref.whole main_call0_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v23) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v24) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x512x16 : Shape := ⟨4, ![8, 512, 512, 16]⟩
abbrev S8x512x512 : Shape := ⟨3, ![8, 512, 512]⟩
abbrev S16x16 : Shape := ⟨2, ![16, 16]⟩
abbrev S16 : Shape := ⟨1, ![16]⟩
abbrev S1x1x1x16 : Shape := ⟨4, ![1, 1, 1, 16]⟩
abbrev S8x512x512x1 : Shape := ⟨4, ![8, 512, 512, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x512x512x16, .f32⟩
  | .hbm, ⟨1, _⟩ => ⟨S8x512x512, .i1⟩
  | .hbm, ⟨2, _⟩ => ⟨S16x16, .f32⟩
  | .hbm, ⟨3, _⟩ => ⟨S16, .f32⟩
  | .hbm, ⟨4, _⟩ => ⟨S8x512x512x16, .f32⟩
  | .hbm, ⟨5, _⟩ => ⟨S1x1x1x16, .f32⟩
  | .hbm, ⟨6, _⟩ => ⟨S8x512x512x16, .f32⟩
  | .hbm, ⟨7, _⟩ => ⟨S8x512x512x16, .f32⟩
  | .hbm, ⟨8, _⟩ => ⟨S8x512x512x1, .i1⟩
  | .hbm, ⟨9, _⟩ => ⟨S_, .f32⟩
  | .hbm, ⟨10, _⟩ => ⟨S8x512x512x16, .f32⟩
  | .hbm, ⟨11, _⟩ => ⟨S8x512x512x16, .i1⟩
  | .hbm, ⟨12, _⟩ => ⟨S8x512x512x16, .f32⟩
  | _, _ => ⟨S8x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S16_S1x1x1x16_3 : S16.BroadcastsInDim S1x1x1x16 (![3] : Fin 1 → Fin S1x1x1x16.rank)
  bcast_S1x1x1x16_S8x512x512x16_0_1_2_3 : S1x1x1x16.BroadcastsInDim S8x512x512x16 (![0, 1, 2, 3] : Fin 4 → Fin S8x512x512x16.rank)
  bcast_S8x512x512_S8x512x512x1_0_1_2 : S8x512x512.BroadcastsInDim S8x512x512x1 (![0, 1, 2] : Fin 3 → Fin S8x512x512x1.rank)
  bcast_S_S8x512x512x16 : S_.BroadcastsInDim S8x512x512x16 (![] : Fin 0 → Fin S8x512x512x16.rank)
  bcast_S8x512x512x1_S8x512x512x16_0_1_2_3 : S8x512x512x1.BroadcastsInDim S8x512x512x16 (![0, 1, 2, 3] : Fin 4 → Fin S8x512x512x16.rank)
  dot_S8x512x512x16_S16x16_S8x512x512x16_3_1_012_0_n_n_wf : DotDims.WF S8x512x512x16 S16x16 S8x512x512x16 [3] [1] [0, 1, 2] [0] [] []

variable [Facts₀]

def dot_S8x512x512x16_S16x16_S8x512x512x16_3_1_012_0_n_n : DotDims S8x512x512x16 S16x16 S8x512x512x16 where
  lhsContracting := [3]
  rhsContracting := [1]
  lhsNonContracting := [0, 1, 2]
  rhsNonContracting := [0]
  lhsBatch := []
  rhsBatch := []
  wf := dot_S8x512x512x16_S16x16_S8x512x512x16_3_1_012_0_n_n_wf

class Facts : Prop extends Facts₀ where

variable [Facts]
-- ==== Proof.MaskedLinear.lean ====
/-
  The function both programs compute.

  For stacks `x[b,i,j,s]`, a mask `μ[b,i,j]`, a weight `W[h,s]` and a bias `β[h]`,

      out[b,i,j,h] = Σ_s x[b,i,j,s] · W[h,s] + β[h]   where μ[b,i,j] is set,   0   elsewhere,

  over the extended reals, the sum over the 16 channels.
-/
import Idealize.ShloMosaic.Lib.ValueIdx
import Idealize.ShloMosaic.PureOps.Ideal

noncomputable section

open scoped BigOperators

namespace Cert.MaskedLinear

open Idealize.ShloMosaic Idealize.ShloMosaic.ValueIdx

/-- The masked linear map at position `(b, i, j)` and head `h`. -/
def entry (stk : (⟨4, ![8, 512, 512, 16]⟩ : Shape).Idx → EReal) (mask : (⟨3, ![8, 512, 512]⟩ : Shape).Idx → BitVec 1)
    (W : (⟨2, ![16, 16]⟩ : Shape).Idx → EReal) (bias : (⟨1, ![16]⟩ : Shape).Idx → EReal)
    (b : Fin 8) (i j : Fin 512) (h : Fin 16) : EReal :=
  if mask (ix3 b i j) = 1#1 then (∑ s : Fin 16, stk (ix4 b i j s) * W (ix2 h s)) + bias (ix1 h) else 0

/-- The whole result array. -/
def result (stk : (⟨4, ![8, 512, 512, 16]⟩ : Shape).Idx → EReal) (mask : (⟨3, ![8, 512, 512]⟩ : Shape).Idx → BitVec 1)
    (W : (⟨2, ![16, 16]⟩ : Shape).Idx → EReal) (bias : (⟨1, ![16]⟩ : Shape).Idx → EReal) :
    (⟨4, ![8, 512, 512, 16]⟩ : Shape).Idx → EReal :=
  fun p => entry stk mask W bias (p 0) (p 1) (p 2) (p 3)

theorem result_apply (stk : (⟨4, ![8, 512, 512, 16]⟩ : Shape).Idx → EReal) (mask : (⟨3, ![8, 512, 512]⟩ : Shape).Idx → BitVec 1)
    (W : (⟨2, ![16, 16]⟩ : Shape).Idx → EReal) (bias : (⟨1, ![16]⟩ : Shape).Idx → EReal)
    (b : Fin 8) (i j : Fin 512) (h : Fin 16) :
    result stk mask W bias (ix4 b i j h) = entry stk mask W bias b i j h := rfl

end Cert.MaskedLinear

end
-- ==== Proof.Reference.lean ====
/-
  The reference computes the masked linear map.

  Its program contracts the channel axis of the stacks with the channel axis of the weight, adds the bias along the
  head axis, and selects that number where the mask (spread along the head axis) is set and the zero word elsewhere.
  Read at position `(b, i, j)` and head `h`, over the extended reals, that is the 16-term sum of products plus the bias
  where the mask is set, and zero elsewhere.
-/
import proofs.«168411_g78331613544461_cont_9to1_m_11_2_alg».proof.Proof.Gen.ReferenceIdeal.Read
import proofs.«168411_g78331613544461_cont_9to1_m_11_2_alg».proof.Proof.MaskedLinear

noncomputable section

namespace Cert.ReferenceIdeal.RefValue

open Idealize.ShloMosaic Idealize.ShloMosaic.ValueIdx
open Cert.ReferenceIdeal Cert.ReferenceIdeal.Gen Cert.ReferenceIdeal.Read

/-- The reference's result, entry by entry, is the masked linear map of its arguments. -/
theorem reference_eq (x0 : (⟨S8x512x512x16, .f32⟩ : BufTy).Contents (Elt Ideal)) (x1 : (⟨S8x512x512, .i1⟩ : BufTy).Contents (Elt Ideal))
    (x2 : (⟨S16x16, .f32⟩ : BufTy).Contents (Elt Ideal)) (x3 : (⟨S16, .f32⟩ : BufTy).Contents (Elt Ideal)) :
    val_main_v6 (F := Ideal) x0 x1 x2 x3 = Cert.MaskedLinear.result x0 x1 x2 x3 := by
  funext p
  obtain ⟨b, i, j, h, rfl⟩ : ∃ (b : Fin 8) (i j : Fin 512) (h : Fin 16), p = ix4 b i j h := ⟨p 0, p 1, p 2, p 3, eq_ix4 p⟩
  rw [Cert.MaskedLinear.result_apply]
  have el : ∀ k : Fin 16, lidx_main_v0 (ix4 b i j h) k = ix4 b i j k := fun k => funext fun a => Fin.ext (by
    match a with
    | ⟨0, _⟩ => rfl
    | ⟨1, _⟩ => rfl
    | ⟨2, _⟩ => rfl
    | ⟨3, _⟩ => rfl)
  have er : ∀ k : Fin 16, ridx_main_v0 (ix4 b i j h) k = ix2 h k := fun k => funext fun a => Fin.ext (by
    match a with
    | ⟨0, _⟩ => rfl
    | ⟨1, _⟩ => rfl)
  have e1 : idx_main_v1 (idx_main_v2 (ix4 b i j h)) = ix1 h := funext fun a => Fin.ext (by
    match a with
    | ⟨0, _⟩ => rfl)
  have e4 : idx_main_v4 (idx_main_call0_v0 (ix4 b i j h)) = ix3 b i j := funext fun a => Fin.ext (by
    match a with
    | ⟨0, _⟩ => rfl
    | ⟨1, _⟩ => rfl
    | ⟨2, _⟩ => rfl)
  rw [val_main_v6_apply, val_main_call0_v0_apply, val_main_v4_apply, val_main_v3_apply, val_main_v0_apply,
    val_main_v2_apply, val_main_v1_apply, val_main_v5_apply, val_main_cst_apply]
  simp only [el, er, e1, e4]
  unfold Cert.MaskedLinear.entry
  show Scalar.select (x1 (ix3 b i j)) ((∑ k : Fin 16, x0 (ix4 b i j k) * x2 (ix2 h k)) + x3 (ix1 h)) (Ideal.ofBits .f32 0x00000000#32) = _
  rw [Ideal.ofBits_zero_f32]
  rfl

end Cert.ReferenceIdeal.RefValue

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.Body.lean ====
/-
  One grid point's stored block, entry by entry.

  The body loads a 4096 x 128 block `x` of packed rows, the 128 x 128 weight `w`, the 1 x 128 bias row `b`, a 4096 x 8
  block `g` of 32-bit mask words and the 8 x 128 lane-expansion matrix `e`, and stores

      (x · w + b) * (f(g) · e),

  where `f` turns a mask word into the float 1 (the word is not zero) or 0, `·` is a matrix product accumulated from zero
  and `*`, `+` act entry by entry, the bias row repeated down the rows. Over the extended reals a matrix product from zero
  is the plain sum over the contracted coordinate, so entry (p, q) of the stored block is

      ((Σ_k x(p,k) · w(k,q)) + b(0,q)) · (Σ_j f(g(p,j)) · e(j,q)).
-/
import proofs.«168411_g78331613544461_cont_9to1_m_11_2_alg».proof.Proof.Gen.KernelIdeal.Skeleton
import proofs.«168411_g78331613544461_cont_9to1_m_11_2_alg».proof.Proof.LibGram
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-- A mask word as a float: 1 when the word is not zero, else 0 (the comparison flag widened and read signed). -/
def wordFlag (v : BitVec 32) : EReal := FloatOps.sitofp (F := Ideal) .f32 ((IntOp.cmpi .ne v 0#32).setWidth 32)

/-! ## The two products' operand entries -/

theorem lhsW_row (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsW_col (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q
theorem rhsW_row (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q
theorem rhsW_col (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem lhsE_row (j : S4096x128.Idx) (q : dot_S4096x8_S8x128_S4096x128_1_0_0_1_n_n.contr.Idx) :
    (dot_S4096x8_S8x128_S4096x128_1_0_0_1_n_n.lhsIdx j q 0).val = (j 0).val := by
  unfold DotDims.lhsIdx
  rw [dif_neg (show ¬(0 : Fin S4096x8.rank) ∈ dot_S4096x8_S8x128_S4096x128_1_0_0_1_n_n.lhsBatch by decide), dif_pos (show (0 : Fin S4096x8.rank) ∈ dot_S4096x8_S8x128_S4096x128_1_0_0_1_n_n.lhsNonContracting by decide)]
  rfl
theorem lhsE_col (j : S4096x128.Idx) (q : dot_S4096x8_S8x128_S4096x128_1_0_0_1_n_n.contr.Idx) :
    (dot_S4096x8_S8x128_S4096x128_1_0_0_1_n_n.lhsIdx j q 1).val = (q ⟨0, by decide⟩).val :=
  dot_S4096x8_S8x128_S4096x128_1_0_0_1_n_n.lhsIdx_val_of_single rfl j q
theorem rhsE_row (j : S4096x128.Idx) (q : dot_S4096x8_S8x128_S4096x128_1_0_0_1_n_n.contr.Idx) :
    (dot_S4096x8_S8x128_S4096x128_1_0_0_1_n_n.rhsIdx j q 0).val = (q ⟨0, by decide⟩).val :=
  dot_S4096x8_S8x128_S4096x128_1_0_0_1_n_n.rhsIdx_val_of_single rfl j q
theorem rhsE_col (j : S4096x128.Idx) (q : dot_S4096x8_S8x128_S4096x128_1_0_0_1_n_n.contr.Idx) :
    (dot_S4096x8_S8x128_S4096x128_1_0_0_1_n_n.rhsIdx j q 1).val = (j 1).val := by
  unfold DotDims.rhsIdx
  rw [dif_neg (show ¬(1 : Fin S8x128.rank) ∈ dot_S4096x8_S8x128_S4096x128_1_0_0_1_n_n.rhsBatch by decide), dif_pos (show (1 : Fin S8x128.rank) ∈ dot_S4096x8_S8x128_S4096x128_1_0_0_1_n_n.rhsNonContracting by decide)]
  rfl

/-- The weight product at (p, q): the sum over the 128 packed lanes. -/
theorem weightProduct_apply (x : FVec Ideal S4096x128 .f32) (w : FVec Ideal S128x128 .f32) (p : Fin 4096) (q : Fin 128) :
    matmul dot_S4096x128_S128x128_S4096x128_1_0_0_1_n_n none x w (constant S4096x128 .f32 0x00000000#32) (ix2 p q)
      = ∑ k : Fin 128, x (ix2 p k) * w (ix2 k q) := by
  refine Cert.Lib.Gram.matmul_zero_single_apply dot_S4096x128_S128x128_S4096x128_1_0_0_1_n_n 128 rfl rfl none x w (ix2 p q)
    (fun k => ix2 p k) (fun k => ix2 k q) (fun k => ?_) (fun k => ?_)
  · have hk := contrEquiv1_symm_val dot_S4096x128_S128x128_S4096x128_1_0_0_1_n_n 128 rfl rfl k
    funext a; apply Fin.ext
    match a with
    | ⟨0, _⟩ => exact lhsW_row _ _
    | ⟨1, _⟩ => exact (lhsW_col _ _).trans hk
  · have hk := contrEquiv1_symm_val dot_S4096x128_S128x128_S4096x128_1_0_0_1_n_n 128 rfl rfl k
    funext a; apply Fin.ext
    match a with
    | ⟨0, _⟩ => exact (rhsW_row _ _).trans hk
    | ⟨1, _⟩ => exact rhsW_col _ _

/-- The mask expansion at (p, q): the sum over the 8 positions packed in a row. -/
theorem maskProduct_apply (f : FVec Ideal S4096x8 .f32) (e : FVec Ideal S8x128 .f32) (p : Fin 4096) (q : Fin 128) :
    matmul dot_S4096x8_S8x128_S4096x128_1_0_0_1_n_n none f e (constant S4096x128 .f32 0x00000000#32) (ix2 p q)
      = ∑ j : Fin 8, f (ix2 p j) * e (ix2 j q) := by
  refine Cert.Lib.Gram.matmul_zero_single_apply dot_S4096x8_S8x128_S4096x128_1_0_0_1_n_n 8 rfl rfl none f e (ix2 p q)
    (fun k => ix2 p k) (fun k => ix2 k q) (fun k => ?_) (fun k => ?_)
  · have hk := contrEquiv1_symm_val dot_S4096x8_S8x128_S4096x128_1_0_0_1_n_n 8 rfl rfl k
    funext a; apply Fin.ext
    match a with
    | ⟨0, _⟩ => exact lhsE_row _ _
    | ⟨1, _⟩ => exact (lhsE_col _ _).trans hk
  · have hk := contrEquiv1_symm_val dot_S4096x8_S8x128_S4096x128_1_0_0_1_n_n 8 rfl rfl k
    funext a; apply Fin.ext
    match a with
    | ⟨0, _⟩ => exact (rhsE_row _ _).trans hk
    | ⟨1, _⟩ => exact rhsE_col _ _

/-- Entry (p, q) of the block one grid point stores. -/
theorem stored_apply (x : Vec Ideal S4096x128 .f32) (w : Vec Ideal S128x128 .f32) (b : Vec Ideal S1x128 .f32)
    (g : Vec Ideal S4096x8 .i32) (e : Vec Ideal S8x128 .f32) (p : Fin 4096) (q : Fin 128) :
    k0_pay1 (F := Ideal) x w b g e (ix2 p q)
      = ((∑ k : Fin 128, x (ix2 p k) * w (ix2 k q)) + b (ix2 (0 : Fin 1) q))
          * (∑ j : Fin 8, wordFlag (g (ix2 p j)) * e (ix2 j q)) := by
  unfold k0_pay1
  simp only [shapeCast_self]
  refine (mulf_apply _ _ _).trans ?_
  refine congrArg₂ (· * ·) ?_ ?_
  · refine (addf_apply _ _ _).trans ?_
    refine congrArg₂ (· + ·) (weightProduct_apply x w p q) ?_
    exact broadcastTo_1b_ab_apply b broadcasts_S1x128_S4096x128 p q
  · exact maskProduct_apply _ e p q

end Cert.KernelIdeal.Body

end
-- ==== Proof.Blocks.lean ====
/-
  From the blocks each grid point writes back to the whole packed array.

  The 64 grid points cut the 262144 packed rows into consecutive blocks of 4096 rows; point `t` reads rows
  `4096 t … 4096 t + 4095` of the packed stacks and of the mask words, the whole weight, bias row and expansion matrix,
  and writes back rows `4096 t … 4096 t + 4095` of the result. Every entry of a block is the same function of the five
  operand arrays and of the entry's own position (row `r`, lane `l`):

      ((Σ_k X(r,k) · Wb(k,l)) + Bb(0,l)) · (Σ_j f(M(r,j)) · E(j,l)),

  and the blocks tile the array, so after the last point the array holds that function everywhere.
-/
import proofs.«168411_g78331613544461_cont_9to1_m_11_2_alg».proof.Proof.Gen.KernelIdeal.Frame
import proofs.«168411_g78331613544461_cont_9to1_m_11_2_alg».proof.Proof.Body
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (m : (ℓ : Loc nD τ sig) → Buf (Elt Ideal) ℓ)

theorem hz : (![0, 0] : Fin 2 → Nat) = fun _ => 0 := funext fun a => by fin_cases a <;> rfl

/-- Entry (r, l) of the packed result, from the five operand arrays. -/
def packedAt (X : S262144x128.Idx → EReal) (M : S262144x8.Idx → BitVec 32) (Wb : S128x128.Idx → EReal)
    (Bb : S1x128.Idx → EReal) (E : S8x128.Idx → EReal) (r : Fin 262144) (l : Fin 128) : EReal :=
  ((∑ k : Fin 128, X (ix2 r k) * Wb (ix2 k l)) + Bb (ix2 (0 : Fin 1) l))
    * (∑ j : Fin 8, wordFlag (M (ix2 r j)) * E (ix2 j l))

/-- The packed result as one array. -/
def packed (X : S262144x128.Idx → EReal) (M : S262144x8.Idx → BitVec 32) (Wb : S128x128.Idx → EReal)
    (Bb : S1x128.Idx → EReal) (E : S8x128.Idx → EReal) : S262144x128.Idx → EReal :=
  fun i => packedAt X M Wb Bb E (i 0) (i 1)

/-- Where each window's block sits at point `t`: the row-blocked windows at block `t`, the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := by
  exact lt_of_lt_of_eq t.isLt (show cfg0.N = 64 from N_0)

/-- Row `p` of point `t`'s block is row `4096 t + p` of the array. -/
def rowOf (t : Fin cfg0.N) (p : Fin 4096) : Fin 262144 :=
  ⟨t.val * 4096 + p.val, by have := point_lt t; have := p.isLt; omega⟩

/-! ## Each input block as a part of its array -/

theorem rows_apply (c : Dev nD) (t : Fin cfg0.N) (p : Fin 4096) (k : Fin 128) :
    (iblk m c 0 t : Vec Ideal S4096x128 .f32) (ix2 p k)
      = (V m c main_call0_v0 : S262144x128.Idx → EReal) (ix2 (rowOf t p) k) := by
  obtain ⟨e0, e1, -⟩ := idx_facts t
  unfold iblk
  rw [View.read_apply]
  show V m c main_call0_v0 _ = V m c main_call0_v0 _
  refine congrArg (V m c main_call0_v0) ?_
  funext a; apply Fin.ext
  match a with
  | ⟨0, _⟩ => show win0_0.index t (0 : Fin 2) * 4096 + 1 * p.val = t.val * 4096 + p.val; rw [e0]; omega
  | ⟨1, _⟩ => show win0_0.index t (1 : Fin 2) * 128 + 1 * k.val = k.val; rw [e1]; omega

theorem words_apply (c : Dev nD) (t : Fin cfg0.N) (p : Fin 4096) (j : Fin 8) :
    (iblk m c 1 t : Vec Ideal S4096x8 .i32) (ix2 p j)
      = (V m c main_call0_v23 : S262144x8.Idx → BitVec 32) (ix2 (rowOf t p) j) := by
  obtain ⟨-, -, e0, e1, -⟩ := idx_facts t
  unfold iblk
  rw [View.read_apply]
  show V m c main_call0_v23 _ = V m c main_call0_v23 _
  refine congrArg (V m c main_call0_v23) ?_
  funext a; apply Fin.ext
  match a with
  | ⟨0, _⟩ => show win0_1.index t (0 : Fin 2) * 4096 + 1 * p.val = t.val * 4096 + p.val; rw [e0]; omega
  | ⟨1, _⟩ => show win0_1.index t (1 : Fin 2) * 8 + 1 * j.val = j.val; rw [e1]; omega

theorem weight_apply (c : Dev nD) (t : Fin cfg0.N) (k : Fin 128) (q : Fin 128) :
    (iblk m c 2 t : Vec Ideal S128x128 .f32) (ix2 k q)
      = (V m c main_call0_v9 : S128x128.Idx → EReal) (ix2 k q) := by
  obtain ⟨-, -, -, -, e0, e1, -⟩ := idx_facts t
  unfold iblk
  rw [View.read_apply]
  show V m c main_call0_v9 _ = V m c main_call0_v9 _
  refine congrArg (V m c main_call0_v9) ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem bias_apply (c : Dev nD) (t : Fin cfg0.N) (q : Fin 128) :
    (iblk m c 3 t : Vec Ideal S1x128 .f32) (ix2 (0 : Fin 1) q)
      = (V m c main_call0_v13 : S1x128.Idx → EReal) (ix2 (0 : Fin 1) q) := by
  obtain ⟨-, -, -, -, -, -, e0, e1, -⟩ := idx_facts t
  unfold iblk
  rw [View.read_apply]
  show V m c main_call0_v13 _ = V m c main_call0_v13 _
  refine congrArg (V m c main_call0_v13) ?_
  funext a; apply Fin.ext
  match a with
  | ⟨0, _⟩ => show win0_3.index t (0 : Fin 2) * 1 + 1 * (0 : Fin 1).val = (0 : Fin 1).val; rw [e0]; rfl
  | ⟨1, _⟩ => show win0_3.index t (1 : Fin 2) * 128 + 1 * q.val = q.val; rw [e1]; omega

theorem expand_apply (c : Dev nD) (t : Fin cfg0.N) (j : Fin 8) (q : Fin 128) :
    (iblk m c 4 t : Vec Ideal S8x128 .f32) (ix2 j q)
      = (V m c main_call0_v22 : S8x128.Idx → EReal) (ix2 j q) := by
  obtain ⟨-, -, -, -, -, -, -, -, e0, e1, -⟩ := idx_facts t
  unfold iblk
  rw [View.read_apply]
  show V m c main_call0_v22 _ = V m c main_call0_v22 _
  refine congrArg (V m c main_call0_v22) ?_
  funext a; apply Fin.ext
  match a with
  | ⟨0, _⟩ => show win0_4.index t (0 : Fin 2) * 8 + 1 * j.val = j.val; rw [e0]; omega
  | ⟨1, _⟩ => show win0_4.index t (1 : Fin 2) * 128 + 1 * q.val = q.val; rw [e1]; omega

/-! ## What a point writes back -/

/-- Entry (p, q) of the output's block at point `t` sits at row `4096 t + p`, lane `q` of the array. -/
theorem out_emb (t : Fin cfg0.N) (p : Fin 4096) (q : Fin 128) :
    ((cfg0.win 5).blk t).view.emb (ix2 p q) = (ix2 (rowOf t p) q : S262144x128.Idx) := by
  obtain ⟨-, -, -, -, -, -, -, -, -, -, e0, e1⟩ := idx_facts t
  funext a; apply Fin.ext
  match a with
  | ⟨0, _⟩ => show win0_5.index t (0 : Fin 2) * 4096 + 1 * p.val = t.val * 4096 + p.val; rw [e0]; omega
  | ⟨1, _⟩ => show win0_5.index t (1 : Fin 2) * 128 + 1 * q.val = q.val; rw [e1]; omega

/-- WHAT POINT `t` WRITES BACK is block `t` of the packed result of the operand arrays as the region finds them. -/
theorem flushed_eq (c : Dev nD) (t : Fin cfg0.N) :
    (dats m 0 c).flushed 5 t = ((cfg0.win 5).blk t).view.read (Elt Ideal)
      (packed (V m c main_call0_v0) (V m c main_call0_v23) (V m c main_call0_v9) (V m c main_call0_v13) (V m c main_call0_v22)) := by
  show (cfg0.win 5).cut (grid0.coords t) ((dats m 0 c).after 5 t) = _
  rw [after0_5]
  unfold out0_5
  rw [View.canon_unit_zero hz]
  simp only [View.ld_unit_zero (S := S4096x128) hz, View.ld_unit_zero (S := S128x128) hz, View.ld_unit_zero (S := S1x128) hz,
    View.ld_unit_zero (S := S4096x8) hz, View.ld_unit_zero (S := S8x128) hz]
  funext j
  obtain ⟨p, q, rfl⟩ : ∃ (p : Fin 4096) (q : Fin 128), j = ix2 p q := ⟨j 0, j 1, eq_ix2 j⟩
  show k0_pay1 (F := Ideal) (iblk m c 0 t) (iblk m c 2 t) (iblk m c 3 t) (iblk m c 1 t) (iblk m c 4 t) (ix2 p q)
    = packed (V m c main_call0_v0) (V m c main_call0_v23) (V m c main_call0_v9) (V m c main_call0_v13) (V m c main_call0_v22)
        (((cfg0.win 5).blk t).view.emb (ix2 p q))
  rw [out_emb t p q]
  refine (stored_apply (iblk m c 0 t) (iblk m c 2 t) (iblk m c 3 t) (iblk m c 1 t) (iblk m c 4 t) p q).trans ?_
  show _ = packedAt _ _ _ _ _ (rowOf t p) q
  unfold packedAt
  exact congrArg₂ (· * ·)
    (congrArg₂ (· + ·)
      (Finset.sum_congr rfl fun k _ => congrArg₂ (· * ·) (rows_apply m c t p k) (weight_apply m c t k q))
      (bias_apply m c t q))
    (Finset.sum_congr rfl fun j _ => congrArg₂ (· * ·) (congrArg wordFlag (words_apply m c t p j)) (expand_apply m c t j q))

/-! ## The blocks tile the array -/

theorem mem_blk (t : Fin cfg0.N) (i : S262144x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_call0_v24).slice (win0_5.rect t)).set ↔ _
  rw [View.set_slice_whole, Rect.mem_set_unit]
  exact Iff.rfl

/-- Row `r` lies in the block of point `r / 4096`. -/
theorem cover (i : S262144x128.Idx) :
    ∃ t : Fin cfg0.N, (cfg0.win 5).flush t = true ∧ i ∈ ((cfg0.win 5).blk t).view.set := by
  have h0 : (i 0).val < 262144 := (i 0).isLt
  have h1 : (i 1).val < 128 := (i 1).isLt
  let t : Fin cfg0.N := ⟨(i 0).val / 4096, by rw [show cfg0.N = 64 from N_0]; omega⟩
  obtain ⟨-, -, -, -, -, -, -, -, -, -, e0, e1⟩ := idx_facts t
  have ht : t.val = (i 0).val / 4096 := rfl
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; rw [e0, ht]; omega
  | ⟨1, _⟩ => show win0_5.index t (1 : Fin 2) * 128 ≤ (i 1).val ∧ (i 1).val < win0_5.index t (1 : Fin 2) * 128 + 128; rw [e1]; omega

/-- THE ARRAY after the last point: the packed result of the operand arrays as the region finds them. -/
theorem final (c : Dev nD) : (dats m 0 c).arrAt 5 cfg0.N
    = packed (V m c main_call0_v0) (V m c main_call0_v23) (V m c main_call0_v9) (V m c main_call0_v13) (V m c main_call0_v22) :=
  (dats m 0 c).arrAt_eq_of_cover 5 _ (fun t _ => flushed_eq m c t) cover

end Cert.KernelIdeal.Blocks

end
-- ==== Proof.OperandDefs.lean ====
/-
  The five operand arrays of the packed computation, as the host builds them from the arguments.

  The host lays the `8 · 512 · 512` positions out eight to a row: `262144` rows of `128` lanes for the stacks (a change of
  shape only) and `262144` rows of `8` mask words. The weight becomes the Kronecker product of the `8 x 8` identity with
  the transposed weight, folded to `128 x 128`; the bias is repeated eight times along one row of `128` lanes; and the
  lane-expansion matrix has a `1` at (j, l) exactly when lane `l` belongs to packed position `j`, that is when
  `l / 16 = j`, the quotient taken by the program's floor division on 32-bit words.
-/
import proofs.«168411_g78331613544461_cont_9to1_m_11_2_alg».proof.Proof.Gen.KernelIdeal
import Idealize.ShloMosaic.PureOps.Ideal

noncomputable section

namespace Cert.KernelIdeal.Operands

open Idealize.ShloMosaic Cert.KernelIdeal Cert.KernelIdeal.Gen

/-- The 8 x 8 identity as floats: the equality flag of the row and column numbers, read unsigned. -/
def eye8 : S8x8.Idx → EReal :=
  uitofp (F := Ideal) .f32 (cmpi .eq (addi (iotaInDim S8x8 32 0) (broadcastInDim S8x8 ![] bcast_S_S8x8 (constantI S_ 32 0#32))) (iotaInDim S8x8 32 1))

/-- The block-diagonal weight: the Kronecker product of the identity with the transposed weight, its four axes
    (position, channel, position, head) folded to 128 x 128. -/
def wBig (W : S16x16.Idx → EReal) : S128x128.Idx → EReal :=
  shapeCast S128x128
    (mulf (F := Ideal) (φ := .f32)
      (broadcastInDim S8x16x8x16 ![0, 1, 2, 3] bcast_S8x1x8x1_S8x16x8x16_0_1_2_3
        (broadcastInDim S8x1x8x1 ![0, 2] bcast_S8x8_S8x1x8x1_0_2 eye8 : S8x1x8x1.Idx → EReal) : S8x16x8x16.Idx → EReal)
      (broadcastInDim S8x16x8x16 ![0, 1, 2, 3] bcast_S1x16x1x16_S8x16x8x16_0_1_2_3
        (broadcastInDim S1x16x1x16 ![1, 3] bcast_S16x16_S1x16x1x16_1_3
          (transpose S16x16 [1, 0] W transposes_S16x16_S16x16_1_0 : S16x16.Idx → EReal) : S1x16x1x16.Idx → EReal) : S8x16x8x16.Idx → EReal))
    shapeCasts_S8x16x8x16_S128x128

/-- The bias repeated for the eight packed positions, as one row of 128 lanes. -/
def biasRow (bias : S16.Idx → EReal) : S1x128.Idx → EReal :=
  shapeCast S1x128 (shapeCast S128 (broadcastInDim S8x16 ![0, 1] bcast_S1x16_S8x16_0_1 (shapeCast S1x16 bias shapeCasts_S16_S1x16)) shapeCasts_S8x16_S128) shapeCasts_S128_S1x128

/-- Lane `l`'s packed position, `l / 16` rounded down, as the program's floor division computes it on 32-bit words. -/
def laneGroup : S128.Idx → BitVec 32 :=
  let d : S_.Idx → BitVec 32 := constantI S_ 32 16#32
  let lanes : S128.Idx → BitVec 32 := iotaInDim S128 32 0
  let quot : S128.Idx → BitVec 32 := Host.divsi lanes (broadcastInDim S128 ![] bcast_S_S128 d)
  select
    (andi (cmpi .ne (signi lanes) (broadcastInDim S128 ![] bcast_S_S128 (signi d)))
      (cmpi .ne (Host.remsi lanes (broadcastInDim S128 ![] bcast_S_S128 d)) (broadcastInDim S128 ![] bcast_S_S128 (constantI S_ 32 0#32))))
    (subi quot (broadcastInDim S128 ![] bcast_S_S128 (constantI S_ 32 1#32)))
    quot

/-- The lane-expansion matrix: entry (j, l) is 1 when lane `l` belongs to packed position `j`. -/
def expand : S8x128.Idx → EReal :=
  uitofp (F := Ideal) .f32
    (cmpi .eq (broadcastInDim S8x128 ![0, 1] bcast_S1x128_S8x128_0_1 (broadcastInDim S1x128 ![1] bcast_S128_S1x128_1 laneGroup))
      (broadcastInDim S8x128 ![0, 1] bcast_S8x1_S8x128_0_1 (broadcastInDim S8x1 ![0] bcast_S8_S8x1_0 (iotaInDim S8 32 0))))

/-- The mask, eight positions to a row, each flag widened to a 32-bit word. -/
def maskWords (mask : S8x512x512.Idx → BitVec 1) : S262144x8.Idx → BitVec 32 :=
  extui 32 (shapeCast S262144x8 mask shapeCasts_S8x512x512_S262144x8) natLt_1_32

end Cert.KernelIdeal.Operands

end
-- ==== Proof.OperandArrays.lean ====
/-
  The arrays the region finds under its five input windows are the operand arrays the host builds from the arguments:
  each is the composition of the host operations that precede the region, read back from the program's run.
-/
import proofs.«168411_g78331613544461_cont_9to1_m_11_2_alg».proof.Proof.Gen.KernelIdeal.Frame
import proofs.«168411_g78331613544461_cont_9to1_m_11_2_alg».proof.Proof.OperandDefs
import Idealize.ShloMosaic.Lib.StableHlo.Run

set_option maxRecDepth 16384

noncomputable section

namespace Cert.KernelIdeal.Operands

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

theorem stacks_window (c : Dev nD) : (V m c main_call0_v0 : S262144x128.Idx → EReal)
    = shapeCast S262144x128 (m ((c : Thread nD τ).loc main_arg0) : S8x512x512x16.Idx → EReal) shapeCasts_S8x512x512x16_S262144x128 := by
  show StableHlo.after hostOps0 (fun b => m (c, b)) (Proc.devRef .tc main_call0_v0) = _
  after_results
  rfl

theorem mask_window (c : Dev nD) : (V m c main_call0_v23 : S262144x8.Idx → BitVec 32)
    = maskWords (m ((c : Thread nD τ).loc main_arg1) : S8x512x512.Idx → BitVec 1) := by
  show StableHlo.after hostOps0 (fun b => m (c, b)) (Proc.devRef .tc main_call0_v23) = _
  after_results
  rfl

theorem weight_window (c : Dev nD) : (V m c main_call0_v9 : S128x128.Idx → EReal)
    = wBig (m ((c : Thread nD τ).loc main_arg2) : S16x16.Idx → EReal) := by
  show StableHlo.after hostOps0 (fun b => m (c, b)) (Proc.devRef .tc main_call0_v9) = _
  after_results
  rfl

theorem bias_window (c : Dev nD) : (V m c main_call0_v13 : S1x128.Idx → EReal)
    = biasRow (m ((c : Thread nD τ).loc main_arg3) : S16.Idx → EReal) := by
  show StableHlo.after hostOps0 (fun b => m (c, b)) (Proc.devRef .tc main_call0_v13) = _
  after_results
  rfl

set_option maxHeartbeats 2000000 in
theorem expand_window (c : Dev nD) : (V m c main_call0_v22 : S8x128.Idx → EReal) = expand := by
  show StableHlo.after hostOps0 (fun b => m (c, b)) (Proc.devRef .tc main_call0_v22) = _
  after_results
  rfl

end Cert.KernelIdeal.Operands

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.BlockDiagonal.lean ====
/-
  The algebra that joins a packed, block-diagonal linear map to the plain one.

  Eight positions of 16 channels are packed side by side in a row of 128 lanes: lane `16 a + s` holds channel `s` of
  position `a`. The 128 x 128 weight is block diagonal, its entry at (lane `16 a + s`, lane `16 q + h`) being
  `δ(a, q) · w(h, s)` with `δ` the 0/1 indicator of equality. A row times such a column is therefore the 16-term product
  of position `q`'s channels with `w(h, ·)`: the seven other positions' terms are `x · (0 · w) = 0` on the extended reals,
  whatever `x` and `w` are (zero times anything is zero there, the infinities included), and the one surviving block has
  `1 · w = w`. In the same way a sum of numbers against a 0/1 indicator row keeps just the indicated number, and a product
  with a 0/1 flag is a choice between the number and zero.
-/
import proofs.«168411_g78331613544461_cont_9to1_m_11_2_alg».proof.Proof.LibBlockSum
import Idealize.ShloMosaic.PureOps.Ideal

noncomputable section

open scoped BigOperators

namespace Cert.Packed

open Cert.Lib.BlockSum

/-- Lane `16 a + s`: channel `s` of packed position `a`. -/
def lane (a : Fin 8) (s : Fin 16) : Fin 128 := ⟨a.val * 16 + s.val, blockPos_lt rfl a s⟩

theorem lane_val (a : Fin 8) (s : Fin 16) : (lane a s).val = a.val * 16 + s.val := rfl

/-- A row against a column of the block-diagonal weight: only the column's own position contributes. -/
theorem sum_blockDiagonal (x wb : Fin 128 → EReal) (q : Fin 8) (w : Fin 16 → EReal)
    (hwb : ∀ (a : Fin 8) (s : Fin 16), wb (lane a s) = (if a = q then (1 : EReal) else 0) * w s) :
    ∑ k, x k * wb k = ∑ s : Fin 16, x (lane q s) * w s := by
  rw [sum_fin_blocks (a := 8) (b := 16) rfl]
  have hblock : ∀ a : Fin 8, (∑ s : Fin 16, x (lane a s) * wb (lane a s))
      = if a = q then ∑ s : Fin 16, x (lane a s) * w s else 0 := by
    intro a
    by_cases h : a = q
    · rw [if_pos h]
      refine Finset.sum_congr rfl fun s _ => ?_
      rw [hwb, if_pos h, one_mul]
    · rw [if_neg h]
      refine Finset.sum_eq_zero fun s _ => ?_
      rw [hwb, if_neg h, zero_mul, mul_zero]
  show ∑ a : Fin 8, ∑ s : Fin 16, x (lane a s) * wb (lane a s) = _
  rw [Finset.sum_congr rfl fun a _ => hblock a, Finset.sum_ite_eq' Finset.univ q, if_pos (Finset.mem_univ q)]

/-- A sum against a 0/1 indicator row keeps the indicated term. -/
theorem sum_indicator (f e : Fin 8 → EReal) (q : Fin 8) (he : ∀ j, e j = if j = q then (1 : EReal) else 0) :
    ∑ j, f j * e j = f q := by
  have h : ∀ j, f j * e j = if j = q then f j else 0 := fun j => by
    rw [he]
    by_cases hj : j = q
    · rw [if_pos hj, if_pos hj, mul_one]
    · rw [if_neg hj, if_neg hj, mul_zero]
  rw [Finset.sum_congr rfl fun j _ => h j, Finset.sum_ite_eq' Finset.univ q, if_pos (Finset.mem_univ q)]

/-- A product with a 0/1 flag is the choice between the number and zero. -/
theorem mul_flag (y : EReal) (p : Prop) [Decidable p] : y * (if p then (1 : EReal) else 0) = if p then y else 0 := by
  by_cases h : p
  · rw [if_pos h, if_pos h, mul_one]
  · rw [if_neg h, if_neg h, mul_zero]

end Cert.Packed

end
-- ==== Proof.OperandEntries.lean ====
/-
  The operand arrays read at an entry.

  Writing lane `16 a + s` for channel `s` of packed position `a`:
  the block-diagonal weight at (lane `16 a + s`, lane `16 b + h`) is `δ(a, b) · W(h, s)`; the bias row at lane `16 b + h`
  is `bias(h)`; the expansion matrix at (j, lane `16 b + h`) is `δ(j, b)`; the packed stacks at (row, lane) and the packed
  mask at (row, slot) are the argument at the position with the same place in row-major order, the mask flag widened
  to a word; and a widened flag is turned back into the float `1` or `0`.
-/
import proofs.«168411_g78331613544461_cont_9to1_m_11_2_alg».proof.Proof.OperandDefs
import proofs.«168411_g78331613544461_cont_9to1_m_11_2_alg».proof.Proof.Body
import proofs.«168411_g78331613544461_cont_9to1_m_11_2_alg».proof.Proof.BlockDiagonal
import Idealize.ShloMosaic.Lib.Pipeline.Value
import Idealize.ShloMosaic.Lib.ValueIdx
import Idealize.ShloMosaic.Lib.ValueLayout

noncomputable section

namespace Cert.KernelIdeal.Operands

open Idealize.ShloMosaic Idealize.ShloMosaic.ValueIdx Cert.KernelIdeal Cert.KernelIdeal.Gen
open Cert.Packed (lane lane_val)
open Cert.KernelIdeal.Body (wordFlag)

/-! ## One-bit flags as floats -/

/-- A one-bit flag read unsigned is the float 1 or 0. -/
theorem flagReal (f : BitVec 1) : FloatOps.uitofp (F := Ideal) .f32 f = if f = 1#1 then (1 : EReal) else 0 := by
  rcases BitVec.eq_zero_or_eq_one f with h | h <;> subst h
  · rw [if_neg (by decide)]
    show ((((0#1 : BitVec 1).toNat : ℝ)) : EReal) = 0
    simp
  · rw [if_pos rfl]
    show ((((1#1 : BitVec 1).toNat : ℝ)) : EReal) = 1
    simp

/-- A flag widened to a word, tested against zero, widened again and read signed is still the float 1 or 0. -/
theorem wordFlag_widen (f : BitVec 1) : wordFlag (f.setWidth 32) = if f = 1#1 then (1 : EReal) else 0 := by
  rcases BitVec.eq_zero_or_eq_one f with h | h <;> subst h
  · rw [if_neg (by decide)]
    have e : ((IntOp.cmpi .ne ((0#1 : BitVec 1).setWidth 32) 0#32).setWidth 32).toInt = 0 := by decide
    show ((((IntOp.cmpi .ne ((0#1 : BitVec 1).setWidth 32) 0#32).setWidth 32).toInt : ℝ) : EReal) = 0
    rw [e]; simp
  · rw [if_pos rfl]
    have e : ((IntOp.cmpi .ne ((1#1 : BitVec 1).setWidth 32) 0#32).setWidth 32).toInt = 1 := by decide
    show ((((IntOp.cmpi .ne ((1#1 : BitVec 1).setWidth 32) 0#32).setWidth 32).toInt : ℝ) : EReal) = 1
    rw [e]; simp

/-! ## The identity and the block-diagonal weight -/

theorem eyeFlag : ∀ a b : Fin 8,
    (IntOp.cmpi .eq (IntOp.addi (BitVec.ofNat 32 a.val) 0#32) (BitVec.ofNat 32 b.val) = 1#1) ↔ a = b := by
  decide +kernel

theorem eye8_apply (a b : Fin 8) : eye8 (ix2 a b) = if a = b then (1 : EReal) else 0 := by
  unfold eye8
  show FloatOps.uitofp (F := Ideal) .f32 (IntOp.cmpi .eq
      (IntOp.addi (BitVec.ofNat 32 a.val) (broadcastInDim S8x8 ![] bcast_S_S8x8 (constantI S_ 32 0#32) (ix2 a b)))
      (BitVec.ofNat 32 b.val)) = _
  rw [broadcastInDim_apply _ bcast_S_S8x8 (constantI S_ 32 0#32) (ix2 a b) ix0 (fun ax => ax.elim0)]
  show FloatOps.uitofp (F := Ideal) .f32 (IntOp.cmpi .eq (IntOp.addi (BitVec.ofNat 32 a.val) 0#32) (BitVec.ofNat 32 b.val)) = _
  rw [flagReal]
  exact if_congr (eyeFlag a b) rfl rfl

theorem wBig_apply (W : S16x16.Idx → EReal) (a : Fin 8) (s : Fin 16) (b : Fin 8) (h : Fin 16) :
    wBig W (ix2 (lane a s) (lane b h)) = (if a = b then (1 : EReal) else 0) * W (ix2 h s) := by
  unfold wBig
  refine (shapeCast_apply _ shapeCasts_S8x16x8x16_S128x128 (ix2 (lane a s) (lane b h)) (ix4 a s b h) ?_).trans ?_
  · rw [Shape.rowMajor_val_four, Shape.rowMajor_val_two]
    show ((a.val * 16 + s.val) * 8 + b.val) * 16 + h.val = (a.val * 16 + s.val) * 128 + (b.val * 16 + h.val)
    omega
  refine (mulf_apply _ _ _).trans ?_
  refine congrArg₂ (· * ·) ?_ ?_
  · refine (broadcastInDim_apply _ bcast_S8x1x8x1_S8x16x8x16_0_1_2_3 _ (ix4 a s b h) (ix4 a (0 : Fin 1) b (0 : Fin 1)) ?_).trans ?_
    · intro ax
      match ax with
    | ⟨0, _⟩ => show a.val = if (8 : Nat) = 1 then 0 else a.val; rw [if_neg (by decide)]
    | ⟨1, _⟩ => show 0 = if (1 : Nat) = 1 then 0 else s.val; rw [if_pos rfl]
    | ⟨2, _⟩ => show b.val = if (8 : Nat) = 1 then 0 else b.val; rw [if_neg (by decide)]
    | ⟨3, _⟩ => show 0 = if (1 : Nat) = 1 then 0 else h.val; rw [if_pos rfl]
    refine (broadcastInDim_apply _ bcast_S8x8_S8x1x8x1_0_2 eye8 (ix4 a (0 : Fin 1) b (0 : Fin 1)) (ix2 a b) ?_).trans (eye8_apply a b)
    intro ax
    match ax with
    | ⟨0, _⟩ => show a.val = if (8 : Nat) = 1 then 0 else a.val; rw [if_neg (by decide)]
    | ⟨1, _⟩ => show b.val = if (8 : Nat) = 1 then 0 else b.val; rw [if_neg (by decide)]
  · refine (broadcastInDim_apply _ bcast_S1x16x1x16_S8x16x8x16_0_1_2_3 _ (ix4 a s b h) (ix4 (0 : Fin 1) s (0 : Fin 1) h) ?_).trans ?_
    · intro ax
      match ax with
    | ⟨0, _⟩ => show 0 = if (1 : Nat) = 1 then 0 else a.val; rw [if_pos rfl]
    | ⟨1, _⟩ => show s.val = if (16 : Nat) = 1 then 0 else s.val; rw [if_neg (by decide)]
    | ⟨2, _⟩ => show 0 = if (1 : Nat) = 1 then 0 else b.val; rw [if_pos rfl]
    | ⟨3, _⟩ => show h.val = if (16 : Nat) = 1 then 0 else h.val; rw [if_neg (by decide)]
    refine (broadcastInDim_apply _ bcast_S16x16_S1x16x1x16_1_3 _ (ix4 (0 : Fin 1) s (0 : Fin 1) h) (ix2 s h) ?_).trans ?_
    · intro ax
      match ax with
    | ⟨0, _⟩ => show s.val = if (16 : Nat) = 1 then 0 else s.val; rw [if_neg (by decide)]
    | ⟨1, _⟩ => show h.val = if (16 : Nat) = 1 then 0 else h.val; rw [if_neg (by decide)]
    exact transpose_ix2_apply W transposes_S16x16_S16x16_1_0 s h

/-! ## The bias row -/

theorem biasRow_apply (bias : S16.Idx → EReal) (b : Fin 8) (h : Fin 16) :
    biasRow bias (ix2 (0 : Fin 1) (lane b h)) = bias (ix1 h) := by
  unfold biasRow
  refine (shapeCast_a_1a_apply _ shapeCasts_S128_S1x128 (0 : Fin 1) (lane b h)).trans ?_
  refine (shapeCast_apply _ shapeCasts_S8x16_S128 (ix1 (lane b h)) (ix2 b h) ?_).trans ?_
  · rw [Shape.rowMajor_val_two, Shape.rowMajor_val_one]
    rfl
  refine (broadcastInDim_apply _ bcast_S1x16_S8x16_0_1 _ (ix2 b h) (ix2 (0 : Fin 1) h) ?_).trans ?_
  · intro ax
    match ax with
    | ⟨0, _⟩ => show 0 = if (1 : Nat) = 1 then 0 else b.val; rw [if_pos rfl]
    | ⟨1, _⟩ => show h.val = if (16 : Nat) = 1 then 0 else h.val; rw [if_neg (by decide)]
  exact shapeCast_a_1a_apply bias shapeCasts_S16_S1x16 (0 : Fin 1) h

/-! ## The lane-expansion matrix -/

/-- the program's floor division of the lane numbers by 16, decided lane by lane. -/
theorem laneGroup_apply : ∀ l : Fin 128, laneGroup (ix1 l) = BitVec.ofNat 32 (l.val / 16) := by
  decide +kernel

theorem groupFlag : ∀ j b : Fin 8, (IntOp.cmpi .eq (BitVec.ofNat 32 b.val) (BitVec.ofNat 32 j.val) = 1#1) ↔ j = b := by
  decide +kernel

theorem expand_apply (j b : Fin 8) (h : Fin 16) : expand (ix2 j (lane b h)) = if j = b then (1 : EReal) else 0 := by
  unfold expand
  show FloatOps.uitofp (F := Ideal) .f32 (IntOp.cmpi .eq
      (broadcastInDim S8x128 ![0, 1] bcast_S1x128_S8x128_0_1 (broadcastInDim S1x128 ![1] bcast_S128_S1x128_1 laneGroup) (ix2 j (lane b h)))
      (broadcastInDim S8x128 ![0, 1] bcast_S8x1_S8x128_0_1 (broadcastInDim S8x1 ![0] bcast_S8_S8x1_0 (iotaInDim S8 32 0)) (ix2 j (lane b h)))) = _
  have e1 : broadcastInDim S8x128 ![0, 1] bcast_S1x128_S8x128_0_1 (broadcastInDim S1x128 ![1] bcast_S128_S1x128_1 laneGroup) (ix2 j (lane b h))
      = BitVec.ofNat 32 b.val := by
    refine (broadcastInDim_apply _ bcast_S1x128_S8x128_0_1 _ (ix2 j (lane b h)) (ix2 (0 : Fin 1) (lane b h)) ?_).trans ?_
    · intro ax
      match ax with
    | ⟨0, _⟩ => show 0 = if (1 : Nat) = 1 then 0 else j.val; rw [if_pos rfl]
    | ⟨1, _⟩ => show (lane b h).val = if (128 : Nat) = 1 then 0 else (lane b h).val; rw [if_neg (by decide)]
    refine (broadcastInDim_apply _ bcast_S128_S1x128_1 laneGroup (ix2 (0 : Fin 1) (lane b h)) (ix1 (lane b h)) ?_).trans ?_
    · intro ax
      match ax with
    | ⟨0, _⟩ => show (lane b h).val = if (128 : Nat) = 1 then 0 else (lane b h).val; rw [if_neg (by decide)]
    rw [laneGroup_apply]
    refine congrArg (BitVec.ofNat 32) ?_
    show (b.val * 16 + h.val) / 16 = b.val
    have := h.isLt
    omega
  have e2 : broadcastInDim S8x128 ![0, 1] bcast_S8x1_S8x128_0_1 (broadcastInDim S8x1 ![0] bcast_S8_S8x1_0 (iotaInDim S8 32 0)) (ix2 j (lane b h))
      = BitVec.ofNat 32 j.val := by
    refine (broadcastInDim_apply _ bcast_S8x1_S8x128_0_1 _ (ix2 j (lane b h)) (ix2 j (0 : Fin 1)) ?_).trans ?_
    · intro ax
      match ax with
    | ⟨0, _⟩ => show j.val = if (8 : Nat) = 1 then 0 else j.val; rw [if_neg (by decide)]
    | ⟨1, _⟩ => show 0 = if (1 : Nat) = 1 then 0 else (lane b h).val; rw [if_pos rfl]
    refine (broadcastInDim_apply _ bcast_S8_S8x1_0 (iotaInDim S8 32 0) (ix2 j (0 : Fin 1)) (ix1 j) ?_).trans rfl
    intro ax
    match ax with
    | ⟨0, _⟩ => show j.val = if (8 : Nat) = 1 then 0 else j.val; rw [if_neg (by decide)]
  rw [e1, e2, flagReal]
  exact if_congr (groupFlag j b) rfl rfl

/-! ## The packed stacks and mask -/

/-- The packed stacks at (row, lane) are the stacks at the position and channel with the same row-major place. -/
theorem stackRows_apply (stk : S8x512x512x16.Idx → EReal) (b : Fin 8) (r c : Fin 512) (s : Fin 16)
    (R : Fin 262144) (k : Fin 128) (hR : R.val * 128 + k.val = ((b.val * 512 + r.val) * 512 + c.val) * 16 + s.val) :
    shapeCast S262144x128 stk shapeCasts_S8x512x512x16_S262144x128 (ix2 R k) = stk (ix4 b r c s) :=
  shapeCast_apply stk shapeCasts_S8x512x512x16_S262144x128 (ix2 R k) (ix4 b r c s) (by
    rw [Shape.rowMajor_val_four, Shape.rowMajor_val_two]
    show ((b.val * 512 + r.val) * 512 + c.val) * 16 + s.val = R.val * 128 + k.val
    omega)

/-- The packed mask at (row, slot) is the flag of the position with the same row-major place, widened to a word. -/
theorem maskWords_apply (mask : S8x512x512.Idx → BitVec 1) (b : Fin 8) (r c : Fin 512) (R : Fin 262144) (j : Fin 8)
    (hR : R.val * 8 + j.val = (b.val * 512 + r.val) * 512 + c.val) :
    maskWords mask (ix2 R j) = (mask (ix3 b r c)).setWidth 32 := by
  unfold maskWords
  show (shapeCast S262144x8 mask shapeCasts_S8x512x512_S262144x8 (ix2 R j)).setWidth 32 = _
  rw [shapeCast_apply mask shapeCasts_S8x512x512_S262144x8 (ix2 R j) (ix3 b r c) (by
    rw [Shape.rowMajor_val_three, Shape.rowMajor_val_two]
    show (b.val * 512 + r.val) * 512 + c.val = R.val * 8 + j.val
    omega)]

end Cert.KernelIdeal.Operands

end
-- ==== Proof.Result.lean ====
/-
  The kernel's result is the masked linear map.

  The region leaves the packed array `A` (262144 rows of 128 lanes) holding, at (row `r`, lane `l`),

      ((Σ_k X(r,k) · Wb(k,l)) + Bb(0,l)) · (Σ_j f(M(r,j)) · E(j,l)),

  and the one host operation after the region only changes its shape back to `8 x 512 x 512 x 16`: the entry at position
  `(b, i, j)`, head `h` is `A` at row `(512 b + i) · 64 + j / 8`, lane `16 (j mod 8) + h`, the place with the same row-major
  position. There the block-diagonal weight keeps only the position's own 16 channels, the expansion matrix keeps only
  the position's own mask word, the bias row gives `bias(h)`, and the product with the 0/1 mask flag chooses between the
  number and zero.
-/
import proofs.«168411_g78331613544461_cont_9to1_m_11_2_alg».proof.Proof.Gen.KernelIdeal.Frame
import proofs.«168411_g78331613544461_cont_9to1_m_11_2_alg».proof.Proof.Blocks
import proofs.«168411_g78331613544461_cont_9to1_m_11_2_alg».proof.Proof.OperandArrays
import proofs.«168411_g78331613544461_cont_9to1_m_11_2_alg».proof.Proof.OperandEntries
import proofs.«168411_g78331613544461_cont_9to1_m_11_2_alg».proof.Proof.BlockDiagonal
import proofs.«168411_g78331613544461_cont_9to1_m_11_2_alg».proof.Proof.MaskedLinear
import Idealize.ShloMosaic.Lib.Pipeline.Value
import Idealize.ShloMosaic.Lib.ValueIdx
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Body Cert.KernelIdeal.Blocks Cert.KernelIdeal.Operands
open Cert.Packed

variable (m : (ℓ : Loc nD τ sig) → Buf (Elt Ideal) ℓ) (ρ : Dev nD → PrngReg)

/-- The packed result at the row and lane of position `(b, i, j)`, head `h`, is the masked linear map there. -/
theorem packed_entry (stk : S8x512x512x16.Idx → EReal) (mask : S8x512x512.Idx → BitVec 1) (W : S16x16.Idx → EReal)
    (bias : S16.Idx → EReal) (b : Fin 8) (i j : Fin 512) (h : Fin 16) (R : Fin 262144) (q : Fin 8)
    (hR : R.val = (b.val * 512 + i.val) * 64 + j.val / 8) (hq : q.val = j.val % 8) :
    packedAt (shapeCast S262144x128 stk shapeCasts_S8x512x512x16_S262144x128) (maskWords mask) (wBig W) (biasRow bias) expand R (lane q h)
      = Cert.MaskedLinear.entry stk mask W bias b i j h := by
  unfold packedAt Cert.MaskedLinear.entry
  have h1 : ∑ k : Fin 128, shapeCast S262144x128 stk shapeCasts_S8x512x512x16_S262144x128 (ix2 R k) * wBig W (ix2 k (lane q h))
      = ∑ s : Fin 16, stk (ix4 b i j s) * W (ix2 h s) := by
    refine (sum_blockDiagonal (fun k => shapeCast S262144x128 stk shapeCasts_S8x512x512x16_S262144x128 (ix2 R k))
      (fun k => wBig W (ix2 k (lane q h))) q (fun s => W (ix2 h s)) (fun a s => wBig_apply W a s q h)).trans ?_
    refine Finset.sum_congr rfl fun s _ => congrArg (· * W (ix2 h s)) ?_
    exact stackRows_apply stk b i j s R (lane q s) (by rw [lane_val]; omega)
  have h2 : ∑ j' : Fin 8, wordFlag (maskWords mask (ix2 R j')) * expand (ix2 j' (lane q h)) = wordFlag (maskWords mask (ix2 R q)) :=
    sum_indicator (fun j' => wordFlag (maskWords mask (ix2 R j'))) (fun j' => expand (ix2 j' (lane q h))) q (fun j' => expand_apply j' q h)
  rw [h1, h2, biasRow_apply, maskWords_apply mask b i j R q (by omega), wordFlag_widen]
  exact mul_flag _ _

/-- The result buffer after the run: the packed array, its shape changed back. -/
theorem tail_value (c : Dev nD) :
    Pipeline.afterTail₀ cfgs (dats m) 0 (V0 m) [hostOps1] c main_v0
      = (shapeCast S8x512x512x16 ((dats m 0 c).arrAt 5 cfg0.N : S262144x128.Idx → EReal) shapeCasts_S262144x128_S8x512x512x16 : S8x512x512x16.Idx → EReal) := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v24)
      = (dats m 0 c).arrAt 5 cfg0.N :=
    Pipeline.withArrays_arr spec0 launch0.win.arr_inj c _ _ 5
  rw [e]
  rfl

/-- The packed array after the last point, in terms of the arguments. -/
theorem packed_array (c : Dev nD) : ((dats m 0 c).arrAt 5 cfg0.N : S262144x128.Idx → EReal)
    = packed (shapeCast S262144x128 (m ((c : Thread nD τ).loc main_arg0) : S8x512x512x16.Idx → EReal) shapeCasts_S8x512x512x16_S262144x128)
        (maskWords (m ((c : Thread nD τ).loc main_arg1) : S8x512x512.Idx → BitVec 1))
        (wBig (m ((c : Thread nD τ).loc main_arg2) : S16x16.Idx → EReal))
        (biasRow (m ((c : Thread nD τ).loc main_arg3) : S16.Idx → EReal)) expand := by
  rw [Blocks.final m c, stacks_window m c, mask_window m c, weight_window m c, bias_window m c, expand_window m c]

/-- The result array, entry by entry, is the masked linear map of the arguments. -/
theorem result_array (c : Dev nD) :
    (shapeCast S8x512x512x16 ((dats m 0 c).arrAt 5 cfg0.N : S262144x128.Idx → EReal) shapeCasts_S262144x128_S8x512x512x16 : S8x512x512x16.Idx → EReal)
      = Cert.MaskedLinear.result (m ((c : Thread nD τ).loc main_arg0)) (m ((c : Thread nD τ).loc main_arg1))
          (m ((c : Thread nD τ).loc main_arg2)) (m ((c : Thread nD τ).loc main_arg3)) := by
  rw [packed_array m c]
  funext p
  obtain ⟨b, i, j, h, rfl⟩ : ∃ (b : Fin 8) (i j : Fin 512) (h : Fin 16), p = ix4 b i j h := ⟨p 0, p 1, p 2, p 3, eq_ix4 p⟩
  rw [Cert.MaskedLinear.result_apply]
  have hb := b.isLt
  have hi := i.isLt
  have hj := j.isLt
  have hh := h.isLt
  let R : Fin 262144 := ⟨(b.val * 512 + i.val) * 64 + j.val / 8, by omega⟩
  let q : Fin 8 := ⟨j.val % 8, by omega⟩
  refine (shapeCast_apply _ shapeCasts_S262144x128_S8x512x512x16 (ix4 b i j h) (ix2 R (lane q h)) ?_).trans ?_
  · rw [Shape.rowMajor_val_four, Shape.rowMajor_val_two]
    show ((b.val * 512 + i.val) * 64 + j.val / 8) * 128 + (j.val % 8 * 16 + h.val) = ((b.val * 512 + i.val) * 512 + j.val) * 16 + h.val
    omega
  exact packed_entry _ _ _ _ b i j h R q rfl rfl

/-- THE RUN, READ: the result buffer ends at the masked linear map of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.MaskedLinear.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans ((tail_value m c).trans (result_array m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A masked, per-position linear map: `out[b,i,j,h] = Σ_s x[b,i,j,s] · W[h,s] + β[h]` where the mask `μ[b,i,j]` is set, and
  `0` elsewhere, for `8 · 512 · 512` positions of 16 channels and 16 heads.

  The kernel packs eight consecutive positions into one row of 128 lanes and applies the 16 -> 16 map to all eight at
  once with a block-diagonal `128 x 128` weight (the Kronecker product of the `8 x 8` identity with `Wᵀ`), adds the bias
  repeated eight times, and multiplies by the mask spread over the lanes by a product with a 0/1 expansion matrix.
  Over the extended reals the two programs agree entry by entry: a row times a column of the block-diagonal weight is
  the position's own 16-term product, since the other seven blocks contribute `x · (0 · w) = 0` (zero times anything is zero
  on the extended reals, the infinities included); the product with the expansion matrix picks out the position's own
  0/1 mask flag; and a product with that flag is the reference's choice between the number and zero. No finiteness of
  the inputs is used.

  The three frames are the programs' runs; the idealization rewrote nothing, so its ledger is empty; the value claim
  states both runs' results as the same function of the arguments.
-/
import proofs.«168411_g78331613544461_cont_9to1_m_11_2_alg».proof.Defs
import proofs.«168411_g78331613544461_cont_9to1_m_11_2_alg».proof.Proof.Gen.Kernel
import proofs.«168411_g78331613544461_cont_9to1_m_11_2_alg».proof.Proof.Gen.Kernel.Frame
import proofs.«168411_g78331613544461_cont_9to1_m_11_2_alg».proof.Proof.Gen.KernelIdeal
import proofs.«168411_g78331613544461_cont_9to1_m_11_2_alg».proof.Proof.Gen.KernelIdeal.Frame
import proofs.«168411_g78331613544461_cont_9to1_m_11_2_alg».proof.Proof.Gen.ReferenceIdeal
import proofs.«168411_g78331613544461_cont_9to1_m_11_2_alg».proof.Proof.Gen.Pre_finite_inputs
import proofs.«168411_g78331613544461_cont_9to1_m_11_2_alg».proof.Proof.Gen.ReferenceIdeal.Run
import proofs.«168411_g78331613544461_cont_9to1_m_11_2_alg».proof.Proof.Gen.ReferenceIdeal.Read
import proofs.«168411_g78331613544461_cont_9to1_m_11_2_alg».proof.Proof.MaskedLinear
import proofs.«168411_g78331613544461_cont_9to1_m_11_2_alg».proof.Proof.Reference
import proofs.«168411_g78331613544461_cont_9to1_m_11_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the masked linear map of the (agreeing) arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MaskedLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
